-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S2x1200000 : Shape := ⟨2, ![2, 1200000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S64 .f32) (main_arg5 : FVec F S64x10 .f32) (main_arg6 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg5
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x10 .f32) (main_arg6 : FVec F S10 .f32) (main_arg7 : IVec S2x1200000 32) (main_arg8 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S4000x64 : Shape := ⟨2, ![4000, 64]⟩
abbrev S1300000x64 : Shape := ⟨2, ![1300000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 105
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S2x1200000, .i32⟩
  | .hbm, ⟨8, _⟩ => ⟨S100000, .i32⟩
  | .hbm, ⟨9, _⟩ => ⟨S100000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S_, .f32⟩
  | .hbm, ⟨17, _⟩ => ⟨S1300000, .f32⟩
  | .hbm, ⟨18, _⟩ => ⟨S_, .f32⟩
  | .hbm, ⟨19, _⟩ => ⟨S100000, .f32⟩
  | .hbm, ⟨20, _⟩ => ⟨S1300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1300000, .i32⟩
  | .hbm, ⟨32, _⟩ => ⟨S1300000, .i1⟩
  | .hbm, ⟨33, _⟩ => ⟨S_, .i32⟩
  | .hbm, ⟨34, _⟩ => ⟨S1300000, .i32⟩
  | .hbm, ⟨35, _⟩ => ⟨S1300000, .i32⟩
  | .hbm, ⟨36, _⟩ => ⟨S1300000, .i32⟩
  | .hbm, ⟨37, _⟩ => ⟨S1300000x1, .i32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S1300000x1, .f32⟩
  | .hbm, ⟨50, _⟩ => ⟨S100000x64, .f32⟩
  | .hbm, ⟨51, _⟩ => ⟨S_, .i32⟩
  | .hbm, ⟨52, _⟩ => ⟨S1300000, .i32⟩
  | .hbm, ⟨53, _⟩ => ⟨S1300000, .i1⟩
  | .hbm, ⟨54, _⟩ => ⟨S_, .i32⟩
  | .hbm, ⟨55, _⟩ => ⟨S1300000, .i32⟩
  | .hbm, ⟨56, _⟩ => ⟨S1300000, .i32⟩
  | .hbm, ⟨57, _⟩ => ⟨S1300000, .i32⟩
  | .hbm, ⟨58, _⟩ => ⟨S1300000x1, .i32⟩
  | .hbm, ⟨59, _⟩ => ⟨S1300000x64, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S_, .i32⟩
  | .hbm, ⟨69, _⟩ => ⟨S1300000, .i32⟩
  | .hbm, ⟨70, _⟩ => ⟨S1300000, .i1⟩
  | .hbm, ⟨71, _⟩ => ⟨S_, .i32⟩
  | .hbm, ⟨72, _⟩ => ⟨S1300000, .i32⟩
  | .hbm, ⟨73, _⟩ => ⟨S1300000, .i32⟩
  | .hbm, ⟨74, _⟩ => ⟨S1300000, .i32⟩
  | .hbm, ⟨75, _⟩ => ⟨S1300000x1, .i32⟩
  | .hbm, ⟨76, _⟩ => ⟨S1300000x64, .f32⟩
  | .hbm, ⟨77, _⟩ => ⟨S1300000x64, .f32⟩
  | .hbm, ⟨78, _⟩ => ⟨S1300000x64, .f32⟩
  | .hbm, ⟨79, _⟩ => ⟨S_, .f32⟩
  | .hbm, ⟨80, _⟩ => ⟨S100000x64, .f32⟩
  | .hbm, ⟨81, _⟩ => ⟨S1300000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S_, .f32⟩
  | .hbm, ⟨86, _⟩ => ⟨S128x64, .f32⟩
  | .hbm, ⟨87, _⟩ => ⟨S100000x1, .i32⟩
  | .hbm, ⟨88, _⟩ => ⟨S128x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S128, .f32⟩
  | .hbm, ⟨93, _⟩ => ⟨S100000x1, .i32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128x1, .f32⟩
  | .hbm, ⟨99, _⟩ => ⟨S128x64, .f32⟩
  | .hbm, ⟨100, _⟩ => ⟨S128x64, .f32⟩
  | .hbm, ⟨101, _⟩ => ⟨S128x10, .f32⟩
  | .hbm, ⟨102, _⟩ => ⟨S1x10, .f32⟩
  | .hbm, ⟨103, _⟩ => ⟨S128x10, .f32⟩
  | .hbm, ⟨104, _⟩ => ⟨S128x10, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S4000x64_S64x64_S4000x64_1_0_0_1_n_n_wf : DotDims.WF S4000x64 S64x64 S4000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 115
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S2x1200000, .i32⟩
  | .hbm, ⟨8, _⟩ => ⟨S100000, .i32⟩
  | .hbm, ⟨9, _⟩ => ⟨S100000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S_, .f32⟩
  | .hbm, ⟨17, _⟩ => ⟨S1300000, .f32⟩
  | .hbm, ⟨18, _⟩ => ⟨S_, .f32⟩
  | .hbm, ⟨19, _⟩ => ⟨S100000, .f32⟩
  | .hbm, ⟨20, _⟩ => ⟨S1300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1300000, .i32⟩
  | .hbm, ⟨32, _⟩ => ⟨S1300000, .i1⟩
  | .hbm, ⟨33, _⟩ => ⟨S_, .i32⟩
  | .hbm, ⟨34, _⟩ => ⟨S1300000, .i32⟩
  | .hbm, ⟨35, _⟩ => ⟨S1300000, .i32⟩
  | .hbm, ⟨36, _⟩ => ⟨S1300000, .i32⟩
  | .hbm, ⟨37, _⟩ => ⟨S1300000x1, .i32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S100000x64, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1300000, .i32⟩
  | .hbm, ⟨75, _⟩ => ⟨S1300000, .i1⟩
  | .hbm, ⟨76, _⟩ => ⟨S_, .i32⟩
  | .hbm, ⟨77, _⟩ => ⟨S1300000, .i32⟩
  | .hbm, ⟨78, _⟩ => ⟨S1300000, .i32⟩
  | .hbm, ⟨79, _⟩ => ⟨S1300000, .i32⟩
  | .hbm, ⟨80, _⟩ => ⟨S1300000x1, .i32⟩
  | .hbm, ⟨81, _⟩ => ⟨S1300000x64, .f32⟩
  | .hbm, ⟨82, _⟩ => ⟨S1300000x1, .f32⟩
  | .hbm, ⟨83, _⟩ => ⟨S1300000x64, .f32⟩
  | .hbm, ⟨84, _⟩ => ⟨S1300000x64, .f32⟩
  | .hbm, ⟨85, _⟩ => ⟨S_, .f32⟩
  | .hbm, ⟨86, _⟩ => ⟨S100000x64, .f32⟩
  | .hbm, ⟨87, _⟩ => ⟨S1300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S128x64, .f32⟩
  | .hbm, ⟨97, _⟩ => ⟨S100000x1, .i32⟩
  | .hbm, ⟨98, _⟩ => ⟨S128x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S128, .f32⟩
  | .hbm, ⟨103, _⟩ => ⟨S100000x1, .i32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128x1, .f32⟩
  | .hbm, ⟨109, _⟩ => ⟨S128x64, .f32⟩
  | .hbm, ⟨110, _⟩ => ⟨S128x64, .f32⟩
  | .hbm, ⟨111, _⟩ => ⟨S128x10, .f32⟩
  | .hbm, ⟨112, _⟩ => ⟨S1x10, .f32⟩
  | .hbm, ⟨113, _⟩ => ⟨S128x10, .f32⟩
  | .hbm, ⟨114, _⟩ => ⟨S128x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KernelRun.lean ====
/-
  The kernel program's run, with its result buffer read.

  The program is a line of host operations with three kernel launches in it. Its buffers' contents at the end of every
  stretch form a fold from the launch memory: a stretch of host operations rewrites the buffers it writes, a launch
  rewrites its result array with what the kernel's write-backs leave and nothing else. The last stage of that fold,
  `W9`, is what every weakly fair execution ends holding, at every buffer that outlives the launches — the argument
  arrays, which no stage writes, and the result buffer `main_v75`, whose contents `W9` this run names.
-/
import proofs.«117086_j14302241095713_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with the result buffer at the
    last stage of the fold and the argument arrays as launched. -/
theorem run_result : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Run

end
-- ==== Proof.RefRun.lean ====
/-
  The reference program's run: a straight line of host operations.

  The reference has no kernel: its @main is a line of 106 host operations (the two functions jax outlined, the
  `where` of the degree normalisation and the rectifier, stand inline at their calls, over the buffers each call names).
  Such a line runs to completion from any memory, and leaves every buffer at the operations' fold over the launch
  contents: each operation rewrites the buffer it writes with its function of the buffers it reads, in order.
-/
import proofs.«117086_j14302241095713_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ nullary main_v0 (iotaInDim S100000 32 0),
    unary main_arg7 main_v1 ((extractStridedSlice S1x1200000 ![0, 0] · slices_S2x1200000_S1x1200000_0_0) : (⟨S2x1200000, .i32⟩ : BufTy).Contents (Elt F) → (⟨S1x1200000, .i32⟩ : BufTy).Contents (Elt F)),
    reshape main_v1 main_v2 rfl shapeCasts_S1x1200000_S1200000,
    binary main_v2 main_v0 main_v3 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    unary main_arg7 main_v4 ((extractStridedSlice S1x1200000 ![1, 0] · slices_S2x1200000_S1x1200000_1_0) : (⟨S2x1200000, .i32⟩ : BufTy).Contents (Elt F) → (⟨S1x1200000, .i32⟩ : BufTy).Contents (Elt F)),
    reshape main_v4 main_v5 rfl shapeCasts_S1x1200000_S1200000,
    binary main_v5 main_v0 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    nullary main_cst (constant S_ .f32 0x3F800000#32),
    unary main_cst main_v7 (broadcastInDim S1300000 ![] bcast_S_S1300000 : (⟨S_, .f32⟩ : BufTy).Contents (Elt F) → (⟨S1300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1300000x1 ![0] bcast_S1300000_S1300000x1_0 : (⟨S1300000, .i32⟩ : BufTy).Contents (Elt F) → (⟨S1300000x1, .i32⟩ : BufTy).Contents (Elt F)),
    ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2) main_call0.v0 id,
    TRef.unary main_call0.v0 main_call0.v1 (broadcastInDim S100000 ![] bcast_S_S100000),
    TRef.ternary (.of main_v12) (.of main_v13) main_call0.v1 main_call0.v2 select,
    nullary main_c (constantI S_ 32 0#32),
    unary main_c main_v15 (broadcastInDim S1300000 ![] bcast_S_S1300000 : (⟨S_, .i32⟩ : BufTy).Contents (Elt F) → (⟨S1300000, .i32⟩ : BufTy).Contents (Elt F)),
    binary main_v3 main_v15 main_v16 (cmpi .slt : (⟨S1300000, .i32⟩ : BufTy).Contents (Elt F) → (⟨S1300000, .i32⟩ : BufTy).Contents (Elt F) → (⟨S1300000, .i1⟩ : BufTy).Contents (Elt F)),
    nullary main_c_3 (constantI S_ 32 100000#32),
    unary main_c_3 main_v17 (broadcastInDim S1300000 ![] bcast_S_S1300000 : (⟨S_, .i32⟩ : BufTy).Contents (Elt F) → (⟨S1300000, .i32⟩ : BufTy).Contents (Elt F)),
    binary main_v3 main_v17 main_v18 (addi : (⟨S1300000, .i32⟩ : BufTy).Contents (Elt F) → (⟨S1300000, .i32⟩ : BufTy).Contents (Elt F) → (⟨S1300000, .i32⟩ : BufTy).Contents (Elt F)),
    ternary main_v16 main_v18 main_v3 main_v19 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v19 main_v20 (broadcastInDim S1300000x1 ![0] bcast_S1300000_S1300000x1_0 : (⟨S1300000, .i32⟩ : BufTy).Contents (Elt F) → (⟨S1300000x1, .i32⟩ : BufTy).Contents (Elt F)),
    binary main_v14 main_v20 main_v21 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    nullary main_c_4 (constantI S_ 32 0#32),
    unary main_c_4 main_v22 (broadcastInDim S1300000 ![] bcast_S_S1300000 : (⟨S_, .i32⟩ : BufTy).Contents (Elt F) → (⟨S1300000, .i32⟩ : BufTy).Contents (Elt F)),
    binary main_v6 main_v22 main_v23 (cmpi .slt : (⟨S1300000, .i32⟩ : BufTy).Contents (Elt F) → (⟨S1300000, .i32⟩ : BufTy).Contents (Elt F) → (⟨S1300000, .i1⟩ : BufTy).Contents (Elt F)),
    nullary main_c_5 (constantI S_ 32 100000#32),
    unary main_c_5 main_v24 (broadcastInDim S1300000 ![] bcast_S_S1300000 : (⟨S_, .i32⟩ : BufTy).Contents (Elt F) → (⟨S1300000, .i32⟩ : BufTy).Contents (Elt F)),
    binary main_v6 main_v24 main_v25 (addi : (⟨S1300000, .i32⟩ : BufTy).Contents (Elt F) → (⟨S1300000, .i32⟩ : BufTy).Contents (Elt F) → (⟨S1300000, .i32⟩ : BufTy).Contents (Elt F)),
    ternary main_v23 main_v25 main_v6 main_v26 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v26 main_v27 (broadcastInDim S1300000x1 ![0] bcast_S1300000_S1300000x1_0 : (⟨S1300000, .i32⟩ : BufTy).Contents (Elt F) → (⟨S1300000x1, .i32⟩ : BufTy).Contents (Elt F)),
    binary main_v14 main_v27 main_v28 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v21 main_v28 main_v29 (mulf : (⟨S1300000, .f32⟩ : BufTy).Contents (Elt F) → (⟨S1300000, .f32⟩ : BufTy).Contents (Elt F) → (⟨S1300000, .f32⟩ : BufTy).Contents (Elt F)),
    binary main_arg0 main_arg1 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v31 (broadcastInDim S1300000 ![] bcast_S_S1300000 : (⟨S_, .i32⟩ : BufTy).Contents (Elt F) → (⟨S1300000, .i32⟩ : BufTy).Contents (Elt F)),
    binary main_v3 main_v31 main_v32 (cmpi .slt : (⟨S1300000, .i32⟩ : BufTy).Contents (Elt F) → (⟨S1300000, .i32⟩ : BufTy).Contents (Elt F) → (⟨S1300000, .i1⟩ : BufTy).Contents (Elt F)),
    nullary main_c_7 (constantI S_ 32 100000#32),
    unary main_c_7 main_v33 (broadcastInDim S1300000 ![] bcast_S_S1300000 : (⟨S_, .i32⟩ : BufTy).Contents (Elt F) → (⟨S1300000, .i32⟩ : BufTy).Contents (Elt F)),
    binary main_v3 main_v33 main_v34 (addi : (⟨S1300000, .i32⟩ : BufTy).Contents (Elt F) → (⟨S1300000, .i32⟩ : BufTy).Contents (Elt F) → (⟨S1300000, .i32⟩ : BufTy).Contents (Elt F)),
    ternary main_v32 main_v34 main_v3 main_v35 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v35 main_v36 (broadcastInDim S1300000x1 ![0] bcast_S1300000_S1300000x1_0 : (⟨S1300000, .i32⟩ : BufTy).Contents (Elt F) → (⟨S1300000x1, .i32⟩ : BufTy).Contents (Elt F)),
    binary main_v30 main_v36 main_v37 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v38 (broadcastInDim S1300000x1 ![0] bcast_S1300000_S1300000x1_0 : (⟨S1300000, .f32⟩ : BufTy).Contents (Elt F) → (⟨S1300000x1, .f32⟩ : BufTy).Contents (Elt F)),
    unary main_v38 main_v39 (broadcastInDim S1300000x64 ![0, 1] bcast_S1300000x1_S1300000x64_0_1 : (⟨S1300000x1, .f32⟩ : BufTy).Contents (Elt F) → (⟨S1300000x64, .f32⟩ : BufTy).Contents (Elt F)),
    binary main_v37 main_v39 main_v40 (mulf : (⟨S1300000x64, .f32⟩ : BufTy).Contents (Elt F) → (⟨S1300000x64, .f32⟩ : BufTy).Contents (Elt F) → (⟨S1300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1300000x1 ![0] bcast_S1300000_S1300000x1_0 : (⟨S1300000, .i32⟩ : BufTy).Contents (Elt F) → (⟨S1300000x1, .i32⟩ : BufTy).Contents (Elt F)),
    ternary main_v41 main_v42 main_v40 main_v43 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_arg2 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v46) main_call1.v0 main_call1.v1 maximumf,
    binary main_v47 main_arg3 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v49 (broadcastInDim S1300000 ![] bcast_S_S1300000 : (⟨S_, .i32⟩ : BufTy).Contents (Elt F) → (⟨S1300000, .i32⟩ : BufTy).Contents (Elt F)),
    binary main_v3 main_v49 main_v50 (cmpi .slt : (⟨S1300000, .i32⟩ : BufTy).Contents (Elt F) → (⟨S1300000, .i32⟩ : BufTy).Contents (Elt F) → (⟨S1300000, .i1⟩ : BufTy).Contents (Elt F)),
    nullary main_c_10 (constantI S_ 32 100000#32),
    unary main_c_10 main_v51 (broadcastInDim S1300000 ![] bcast_S_S1300000 : (⟨S_, .i32⟩ : BufTy).Contents (Elt F) → (⟨S1300000, .i32⟩ : BufTy).Contents (Elt F)),
    binary main_v3 main_v51 main_v52 (addi : (⟨S1300000, .i32⟩ : BufTy).Contents (Elt F) → (⟨S1300000, .i32⟩ : BufTy).Contents (Elt F) → (⟨S1300000, .i32⟩ : BufTy).Contents (Elt F)),
    ternary main_v50 main_v52 main_v3 main_v53 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v53 main_v54 (broadcastInDim S1300000x1 ![0] bcast_S1300000_S1300000x1_0 : (⟨S1300000, .i32⟩ : BufTy).Contents (Elt F) → (⟨S1300000x1, .i32⟩ : BufTy).Contents (Elt F)),
    binary main_v48 main_v54 main_v55 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v56 (broadcastInDim S1300000x1 ![0] bcast_S1300000_S1300000x1_0 : (⟨S1300000, .f32⟩ : BufTy).Contents (Elt F) → (⟨S1300000x1, .f32⟩ : BufTy).Contents (Elt F)),
    unary main_v56 main_v57 (broadcastInDim S1300000x64 ![0, 1] bcast_S1300000x1_S1300000x64_0_1 : (⟨S1300000x1, .f32⟩ : BufTy).Contents (Elt F) → (⟨S1300000x64, .f32⟩ : BufTy).Contents (Elt F)),
    binary main_v55 main_v57 main_v58 (mulf : (⟨S1300000x64, .f32⟩ : BufTy).Contents (Elt F) → (⟨S1300000x64, .f32⟩ : BufTy).Contents (Elt F) → (⟨S1300000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S1300000x1 ![0] bcast_S1300000_S1300000x1_0 : (⟨S1300000, .i32⟩ : BufTy).Contents (Elt F) → (⟨S1300000x1, .i32⟩ : BufTy).Contents (Elt F)),
    ternary main_v59 main_v60 main_v58 main_v61 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_arg4 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v64) main_call2.v0 main_call2.v1 maximumf,
    nullary main_cst_12 (constant S_ .f32 0x00000000#32),
    unary main_cst_12 main_v66 (broadcastInDim S128x64 ![] bcast_S_S128x64 : (⟨S_, .f32⟩ : BufTy).Contents (Elt F) → (⟨S128x64, .f32⟩ : BufTy).Contents (Elt F)),
    unary main_arg8 main_v67 (broadcastInDim S100000x1 ![0] bcast_S100000_S100000x1_0 : (⟨S100000, .i32⟩ : BufTy).Contents (Elt F) → (⟨S100000x1, .i32⟩ : BufTy).Contents (Elt F)),
    ternary main_v66 main_v67 main_v65 main_v68 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_13 (constant S_ .f32 0x3F800000#32),
    unary main_cst_13 main_v69 (broadcastInDim S100000 ![] bcast_S_S100000 : (⟨S_, .f32⟩ : BufTy).Contents (Elt F) → (⟨S100000, .f32⟩ : BufTy).Contents (Elt F)),
    nullary main_cst_14 (constant S_ .f32 0x00000000#32),
    unary main_cst_14 main_v70 (broadcastInDim S128 ![] bcast_S_S128 : (⟨S_, .f32⟩ : BufTy).Contents (Elt F) → (⟨S128, .f32⟩ : BufTy).Contents (Elt F)),
    unary main_arg8 main_v71 (broadcastInDim S100000x1 ![0] bcast_S100000_S100000x1_0 : (⟨S100000, .i32⟩ : BufTy).Contents (Elt F) → (⟨S100000x1, .i32⟩ : BufTy).Contents (Elt F)),
    ternary main_v70 main_v71 main_v69 main_v72 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_15 (constant S_ .f32 0x3F800000#32),
    unary main_cst_15 main_v73 (broadcastInDim S128 ![] bcast_S_S128 : (⟨S_, .f32⟩ : BufTy).Contents (Elt F) → (⟨S128, .f32⟩ : BufTy).Contents (Elt F)),
    binary main_v72 main_v73 main_v74 (maximumf : (⟨S128, .f32⟩ : BufTy).Contents (Elt F) → (⟨S128, .f32⟩ : BufTy).Contents (Elt F) → (⟨S128, .f32⟩ : BufTy).Contents (Elt F)),
    unary main_v74 main_v75 (broadcastInDim S128x1 ![0] bcast_S128_S128x1_0 : (⟨S128, .f32⟩ : BufTy).Contents (Elt F) → (⟨S128x1, .f32⟩ : BufTy).Contents (Elt F)),
    unary main_v75 main_v76 (broadcastInDim S128x64 ![0, 1] bcast_S128x1_S128x64_0_1 : (⟨S128x1, .f32⟩ : BufTy).Contents (Elt F) → (⟨S128x64, .f32⟩ : BufTy).Contents (Elt F)),
    binary main_v68 main_v76 main_v77 (Host.divf : (⟨S128x64, .f32⟩ : BufTy).Contents (Elt F) → (⟨S128x64, .f32⟩ : BufTy).Contents (Elt F) → (⟨S128x64, .f32⟩ : BufTy).Contents (Elt F)),
    binary main_v77 main_arg5 main_v78 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg6 main_v79 (broadcastInDim S1x10 ![1] bcast_S10_S1x10_1 : (⟨S10, .f32⟩ : BufTy).Contents (Elt F) → (⟨S1x10, .f32⟩ : BufTy).Contents (Elt F)),
    unary main_v79 main_v80 (broadcastInDim S128x10 ![0, 1] bcast_S1x10_S128x10_0_1 : (⟨S1x10, .f32⟩ : BufTy).Contents (Elt F) → (⟨S128x10, .f32⟩ : BufTy).Contents (Elt F)),
    binary main_v78 main_v80 main_v81 (addf : (⟨S128x10, .f32⟩ : BufTy).Contents (Elt F) → (⟨S128x10, .f32⟩ : BufTy).Contents (Elt F) → (⟨S128x10, .f32⟩ : BufTy).Contents (Elt F)) ]

set_option maxRecDepth 8192 in
set_option maxHeartbeats 4000000 in
/-- @main is that line: the outlined functions unfolded at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., unary_bufs_sub .., unary_bufs_sub .., binary_bufs_sub ..⟩

/-- On every device, for any float values, from any memory with zero counters: every weakly fair execution of @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefKept.lean ====
/-
  The reference's line writes none of its argument arrays.

  Every operation of the line writes a buffer of its own, never an argument: so the fold, read at an argument, is what the
  argument held at the launch.
-/
import proofs.«117086_j14302241095713_1_alg».proof.Proof.RefRun

set_option maxRecDepth 8192

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem kept_arg0 (V : Valuation τ sig (Elt F)) :
    after (ops (F := F)) V (Proc.devRef .tc main_arg0) = V (Proc.devRef .tc main_arg0) := by
  after_results_simp <;> rfl

set_option maxHeartbeats 4000000 in
theorem kept_arg1 (V : Valuation τ sig (Elt F)) :
    after (ops (F := F)) V (Proc.devRef .tc main_arg1) = V (Proc.devRef .tc main_arg1) := by
  after_results_simp <;> rfl

set_option maxHeartbeats 4000000 in
theorem kept_arg2 (V : Valuation τ sig (Elt F)) :
    after (ops (F := F)) V (Proc.devRef .tc main_arg2) = V (Proc.devRef .tc main_arg2) := by
  after_results_simp <;> rfl

set_option maxHeartbeats 4000000 in
theorem kept_arg3 (V : Valuation τ sig (Elt F)) :
    after (ops (F := F)) V (Proc.devRef .tc main_arg3) = V (Proc.devRef .tc main_arg3) := by
  after_results_simp <;> rfl

set_option maxHeartbeats 4000000 in
theorem kept_arg4 (V : Valuation τ sig (Elt F)) :
    after (ops (F := F)) V (Proc.devRef .tc main_arg4) = V (Proc.devRef .tc main_arg4) := by
  after_results_simp <;> rfl

set_option maxHeartbeats 4000000 in
theorem kept_arg5 (V : Valuation τ sig (Elt F)) :
    after (ops (F := F)) V (Proc.devRef .tc main_arg5) = V (Proc.devRef .tc main_arg5) := by
  after_results_simp <;> rfl

set_option maxHeartbeats 4000000 in
theorem kept_arg6 (V : Valuation τ sig (Elt F)) :
    after (ops (F := F)) V (Proc.devRef .tc main_arg6) = V (Proc.devRef .tc main_arg6) := by
  after_results_simp <;> rfl

set_option maxHeartbeats 4000000 in
theorem kept_arg7 (V : Valuation τ sig (Elt F)) :
    after (ops (F := F)) V (Proc.devRef .tc main_arg7) = V (Proc.devRef .tc main_arg7) := by
  after_results_simp <;> rfl

set_option maxHeartbeats 4000000 in
theorem kept_arg8 (V : Valuation τ sig (Elt F)) :
    after (ops (F := F)) V (Proc.devRef .tc main_arg8) = V (Proc.devRef .tc main_arg8) := by
  after_results_simp <;> rfl

end Cert.ReferenceIdeal.Line

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Region0.lean ====
/-
  The first kernel's result array is the product of the node features with the first weight matrix.

  The kernel walks the `[100000, 64]` feature array in 25 blocks of 4000 rows; at point `t` it loads rows
  `4000 t, …, 4000 t + 3999` and the whole `[64, 64]` weight matrix, multiplies them into a zero accumulator, and writes
  the `[4000, 64]` product back as the same rows of the result. On the extended reals that block product is
  `rowsTimes` of the two loaded blocks, and a block of rows of a product is the product of that block of rows: so what
  point `t` writes back is block `t` of `rowsTimes x W`, the 25 blocks tile the result, and the result array ends at
  `rowsTimes x W` — as a function of the two arrays as the kernel finds them.
-/
import proofs.«117086_j14302241095713_1_alg».proof.Proof.Gen.KernelIdeal.Frame
import proofs.«117086_j14302241095713_1_alg».proof.Proof.LibPlainDot
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.LibPlainDot
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value: the product of the two loaded blocks (a change of float format is the identity, the
    accumulator is the zero splat, the dimension numbers are the plain ones). -/
theorem body_eq (x0 : Vec Ideal S4000x64 .f32) (x1 : Vec Ideal S64x64 .f32) :
    k0_pay1 x0 x1 = rowsTimes (M := 4000) (K := 64) (N := 64) x0 x1 :=
  matmul_zero_plain (M := 4000) (K := 64) (N := 64) none x0 x1

/-- The windows' block indices over the grid: features and result move one block of rows per point, the weight
    matrix stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed (c : Dev nD) (t : Fin cfg0.N) :
    (dat0 V c).flushed 2 t = ((cfg0.win 2).blk t).view.read (Elt Ideal)
      (rowsTimes (M := 100000) (K := 64) (N := 64) (V c main_arg0) (V c main_arg1)) := by
  show (cfg0.win 2).cut (grid0.coords t) ((dat0 V c).after 2 t) = _
  rw [after0_2]
  unfold out0_2
  rw [View.canon_unit_zero origin]
  simp only [View.ld_unit_zero (S := S4000x64) origin, View.ld_unit_zero (S := S64x64) origin]
  rw [body_eq]
  obtain ⟨e0, e1, e2, e3, e4, e5⟩ := index_facts t
  funext j
  show rowsTimes (M := 4000) (K := 64) (N := 64) (iblk0 V c 0 t) (iblk0 V c 1 t) j
      = rowsTimes (M := 100000) (K := 64) (N := 64) (V c main_arg0) (V c main_arg1) (((cfg0.win 2).blk t).view.emb j)
  have hr : (iblk0 V c 1 t : S64x64.Idx → EReal) = V c main_arg1 := by
    funext y
    show V c main_arg1 (((cfg0.win 1).blk t).view.emb y) = V c main_arg1 y
    refine congrArg (V c main_arg1) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  refine (congrArg (fun r => rowsTimes (M := 4000) (K := 64) (N := 64) (iblk0 V c 0 t) r j) hr).trans ?_
  refine rowsTimes_rows (M := 100000) (R := 4000) (K := 64) (N := 64) (4000 * t.val) (V c main_arg0) (iblk0 V c 0 t)
    (V c main_arg1) (fun y k h => ?_) j (((cfg0.win 2).blk t).view.emb j) ?_ ?_
  · show V c main_arg0 (((cfg0.win 0).blk t).view.emb (ix2 y k)) = V c main_arg0 (ix2 ⟨4000 * t.val + y.val, h⟩ k)
    refine congrArg (V c main_arg0) (funext fun a => Fin.ext ?_)
    match a with
    | ⟨0, _⟩ => show win0_0.index t (0 : Fin 2) * 4000 + 1 * y.val = 4000 * t.val + y.val; omega
    | ⟨1, _⟩ => show win0_0.index t (1 : Fin 2) * 64 + 1 * k.val = k.val; omega
  · show win0_2.index t (0 : Fin 2) * 4000 + 1 * (j 0).val = 4000 * t.val + (j 0).val; omega
  · show win0_2.index t (1 : Fin 2) * 64 + 1 * (j 1).val = (j 1).val; omega

/-- An index of the result is in point `t`'s block iff each coordinate is in the block's range on its axis. -/
theorem mem_block (t : Fin cfg0.N) (i : S100000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v31).slice (win0_2.rect t)).set ↔ _
  rw [View.set_slice_whole, Rect.mem_set_unit]
  exact Iff.rfl

/-- Every block of rows is some point's. -/
theorem point_of_rows : ∀ q0 : Fin 25, ∃ t : Fin cfg0.N, win0_2.index t = ![q0.val, 0] :=
  (by decide +kernel : ∀ q0 : Fin 25, ∃ t : Fin grid0.N, win0_2.index t = ![q0.val, 0])

/-- The blocks tile the result: row `r` is in the block of point `r / 4000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := point_of_rows ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- THE RESULT ARRAY after the region: the product of the feature array and the weight matrix as the region finds
    them. -/
theorem result (c : Dev nD) :
    (dat0 V c).arrAt 2 cfg0.N = rowsTimes (M := 100000) (K := 64) (N := 64) (V c main_arg0) (V c main_arg1) :=
  (dat0 V c).arrAt_eq_of_cover 2 _ (fun t _ => flushed V c t) covered

end Cert.KernelIdeal.Region0

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«117086_j14302241095713_1_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.Region1.lean ====
/-
  The second kernel's result array: the rectified, biased aggregate times the second weight matrix.

  The kernel walks the `[100000, 64]` aggregate in 25 blocks of 4000 rows; at point `t` it loads rows
  `4000 t, …, 4000 t + 3999`, the one-row bias and the whole weight matrix, adds the bias to every row, floors at zero,
  multiplies by the weight matrix into a zero accumulator, and writes the block back as the same rows of the result. An
  entry of "bias added, floored" depends on the same entry of the aggregate and its column of the bias only, and a row of a
  product on that row of the left factor only: so what point `t` writes back is block `t` of
  `rowsTimes (rowBiasFloor 0 agg b) W`, the blocks tile the result, and the result array ends at that function of the three
  arrays as the kernel finds them.
-/
import proofs.«117086_j14302241095713_1_alg».proof.Proof.Gen.KernelIdeal.Frame
import proofs.«117086_j14302241095713_1_alg».proof.Proof.LibPlainDot
import proofs.«117086_j14302241095713_1_alg».proof.Proof.LibRowBias
import proofs.«117086_j14302241095713_1_alg».proof.Proof.LibBodyBias
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.LibPlainDot Cert.LibRowBias
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The rectifier's floor: the value of the zero word. -/
abbrev floor : EReal := Ideal.ofBits .f32 0x00000000#32

/-- The body's stored value: bias added to every row of the loaded block and floored at zero, times the loaded weight
    matrix (a change of float format is the identity, the accumulator is the zero splat). -/
theorem body_eq (x0 : Vec Ideal S4000x64 .f32) (x1 : Vec Ideal S1x64 .f32) (x2 : Vec Ideal S64x64 .f32) :
    k1_pay1 x0 x1 x2 = rowsTimes (M := 4000) (K := 64) (N := 64) (rowBiasFloor (M := 4000) (N := 64) floor x0 x1) x2 := by
  have h := Cert.LibBodyBias.max_addf_broadcastRow (R := 4000) (N := 64) 0x00000000#32 x0 x1 shapeCasts_S4000x64_S4000x64
    shapeCasts_S1x64_S1x64 broadcasts_S1x64_S4000x64
  refine Eq.trans ?_ (congrArg (fun a => rowsTimes (M := 4000) (K := 64) (N := 64) a x2) h)
  exact matmul_zero_plain (M := 4000) (K := 64) (N := 64) none _ x2

/-- The windows' block indices over the grid: aggregate and result move one block of rows per point, the bias row and
    the weight matrix stay. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole function. -/
theorem flushed (c : Dev nD) (t : Fin cfg1.N) :
    (dat1 V c).flushed 3 t = ((cfg1.win 3).blk t).view.read (Elt Ideal)
      (rowsTimes (M := 100000) (K := 64) (N := 64)
        (rowBiasFloor (M := 100000) (N := 64) floor (V c main_v43) (V c main_v44)) (V c main_arg3)) := by
  show (cfg1.win 3).cut (grid1.coords t) ((dat1 V c).after 3 t) = _
  rw [after1_3]
  unfold out1_3
  rw [View.canon_unit_zero origin]
  simp only [View.ld_unit_zero (S := S4000x64) origin, View.ld_unit_zero (S := S1x64) origin, View.ld_unit_zero (S := S64x64) origin]
  rw [body_eq]
  obtain ⟨e0, e1, e2, e3, e4, e5, e6, e7⟩ := index_facts t
  funext j
  show rowsTimes (M := 4000) (K := 64) (N := 64) (rowBiasFloor (M := 4000) (N := 64) floor (iblk1 V c 0 t) (iblk1 V c 1 t)) (iblk1 V c 2 t) j
      = rowsTimes (M := 100000) (K := 64) (N := 64) (rowBiasFloor (M := 100000) (N := 64) floor (V c main_v43) (V c main_v44)) (V c main_arg3)
          (((cfg1.win 3).blk t).view.emb j)
  have hb : (iblk1 V c 1 t : S1x64.Idx → EReal) = V c main_v44 := by
    funext y
    show V c main_v44 (((cfg1.win 1).blk t).view.emb y) = V c main_v44 y
    refine congrArg (V c main_v44) (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  have hw : (iblk1 V c 2 t : S64x64.Idx → EReal) = V c main_arg3 := by
    funext y
    show V c main_arg3 (((cfg1.win 2).blk t).view.emb y) = V c main_arg3 y
    refine congrArg (V c main_arg3) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  refine (congrArg (fun r => rowsTimes (M := 4000) (K := 64) (N := 64) (rowBiasFloor (M := 4000) (N := 64) floor (iblk1 V c 0 t) (iblk1 V c 1 t)) r j) hw).trans ?_
  refine (congrArg (fun b => rowsTimes (M := 4000) (K := 64) (N := 64) (rowBiasFloor (M := 4000) (N := 64) floor (iblk1 V c 0 t) b) (V c main_arg3) j) hb).trans ?_
  have ha : ∀ (p : Fin 4000) (q : Fin 64) (h : 4000 * t.val + p.val < 100000),
      iblk1 V c 0 t (ix2 p q) = V c main_v43 (ix2 (⟨4000 * t.val + p.val, h⟩ : Fin 100000) q) := by
    intro p q h
    show V c main_v43 (((cfg1.win 0).blk t).view.emb (ix2 p q)) = V c main_v43 (ix2 ⟨4000 * t.val + p.val, h⟩ q)
    refine congrArg (V c main_v43) (funext fun a => Fin.ext ?_)
    match a with
    | ⟨0, _⟩ => show win1_0.index t (0 : Fin 2) * 4000 + 1 * p.val = 4000 * t.val + p.val; omega
    | ⟨1, _⟩ => show win1_0.index t (1 : Fin 2) * 64 + 1 * q.val = q.val; omega
  refine rowsTimes_rows (M := 100000) (R := 4000) (K := 64) (N := 64) (4000 * t.val)
    (rowBiasFloor (M := 100000) (N := 64) floor (V c main_v43) (V c main_v44))
    (rowBiasFloor (M := 4000) (N := 64) floor (iblk1 V c 0 t) (V c main_v44))
    (V c main_arg3) (fun y k h => ?_) j (((cfg1.win 3).blk t).view.emb j) ?_ ?_
  · exact rowBiasFloor_rows (M := 100000) (R := 4000) (N := 64) floor (4000 * t.val) (V c main_v43) (iblk1 V c 0 t) (V c main_v44) ha
      (ix2 y k) (ix2 (⟨4000 * t.val + y.val, h⟩ : Fin 100000) k) rfl rfl
  · show win1_3.index t (0 : Fin 2) * 4000 + 1 * (j 0).val = 4000 * t.val + (j 0).val; omega
  · show win1_3.index t (1 : Fin 2) * 64 + 1 * (j 1).val = (j 1).val; omega

/-- An index of the result is in point `t`'s block iff each coordinate is in the block's range on its axis. -/
theorem mem_block (t : Fin cfg1.N) (i : S100000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v45).slice (win1_3.rect t)).set ↔ _
  rw [View.set_slice_whole, Rect.mem_set_unit]
  exact Iff.rfl

/-- Every block of rows is some point's. -/
theorem point_of_rows : ∀ q0 : Fin 25, ∃ t : Fin cfg1.N, win1_3.index t = ![q0.val, 0] :=
  (by decide +kernel : ∀ q0 : Fin 25, ∃ t : Fin grid1.N, win1_3.index t = ![q0.val, 0])

/-- The blocks tile the result: row `r` is in the block of point `r / 4000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := point_of_rows ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- THE RESULT ARRAY after the region: the rectified, biased aggregate times the weight matrix, of the three arrays as the
    region finds them. -/
theorem result (c : Dev nD) :
    (dat1 V c).arrAt 3 cfg1.N = rowsTimes (M := 100000) (K := 64) (N := 64)
      (rowBiasFloor (M := 100000) (N := 64) floor (V c main_v43) (V c main_v44)) (V c main_arg3) :=
  (dat1 V c).arrAt_eq_of_cover 3 _ (fun t _ => flushed V c t) covered

end Cert.KernelIdeal.Region1

end
-- ==== Proof.Region2.lean ====
/-
  The third kernel's result array: the second aggregate with the bias added to every row, floored at zero.

  The kernel walks the `[100000, 64]` aggregate in 25 blocks of 4000 rows; at point `t` it loads rows
  `4000 t, …, 4000 t + 3999` and the one-row bias, adds the bias to every row, floors at zero, and writes the block back as
  the same rows of the result. An entry depends on the same entry of the aggregate and its column of the bias only: so
  what point `t` writes back is block `t` of `rowBiasFloor 0 agg b`, the blocks tile the result, and the result array ends
  at that function of the two arrays as the kernel finds them.
-/
import proofs.«117086_j14302241095713_1_alg».proof.Proof.Gen.KernelIdeal.Frame
import proofs.«117086_j14302241095713_1_alg».proof.Proof.LibRowBias
import proofs.«117086_j14302241095713_1_alg».proof.Proof.LibBodyBias
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.LibRowBias
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The rectifier's floor: the value of the zero word. -/
abbrev floor : EReal := Ideal.ofBits .f32 0x00000000#32

/-- The body's stored value: bias added to every row of the loaded block, floored at zero. -/
theorem body_eq (x0 : Vec Ideal S4000x64 .f32) (x1 : Vec Ideal S1x64 .f32) :
    k2_pay1 x0 x1 = rowBiasFloor (M := 4000) (N := 64) floor x0 x1 :=
  Cert.LibBodyBias.max_addf_broadcastRow (R := 4000) (N := 64) 0x00000000#32 x0 x1 shapeCasts_S4000x64_S4000x64
    shapeCasts_S1x64_S1x64 broadcasts_S1x64_S4000x64

/-- The windows' block indices over the grid: aggregate and result move one block of rows per point, the bias row
    stays. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole function. -/
theorem flushed (c : Dev nD) (t : Fin cfg2.N) :
    (dat2 V c).flushed 2 t = ((cfg2.win 2).blk t).view.read (Elt Ideal)
      (rowBiasFloor (M := 100000) (N := 64) floor (V c main_v57) (V c main_v58)) := by
  show (cfg2.win 2).cut (grid2.coords t) ((dat2 V c).after 2 t) = _
  rw [after2_2]
  unfold out2_2
  rw [View.canon_unit_zero origin]
  simp only [View.ld_unit_zero (S := S4000x64) origin, View.ld_unit_zero (S := S1x64) origin]
  rw [body_eq]
  obtain ⟨e0, e1, e2, e3, e4, e5⟩ := index_facts t
  funext j
  show rowBiasFloor (M := 4000) (N := 64) floor (iblk2 V c 0 t) (iblk2 V c 1 t) j
      = rowBiasFloor (M := 100000) (N := 64) floor (V c main_v57) (V c main_v58) (((cfg2.win 2).blk t).view.emb j)
  have hb : (iblk2 V c 1 t : S1x64.Idx → EReal) = V c main_v58 := by
    funext y
    show V c main_v58 (((cfg2.win 1).blk t).view.emb y) = V c main_v58 y
    refine congrArg (V c main_v58) (funext fun a => Fin.ext ?_)
    match a with
    | ⟨0, _⟩ => show win2_1.index t (0 : Fin 2) * 1 + 1 * (y 0).val = (y 0).val; omega
    | ⟨1, _⟩ => show win2_1.index t (1 : Fin 2) * 64 + 1 * (y 1).val = (y 1).val; omega
  refine (congrArg (fun b => rowBiasFloor (M := 4000) (N := 64) floor (iblk2 V c 0 t) b j) hb).trans ?_
  have ha : ∀ (p : Fin 4000) (q : Fin 64) (h : 4000 * t.val + p.val < 100000),
      iblk2 V c 0 t (ix2 p q) = V c main_v57 (ix2 (⟨4000 * t.val + p.val, h⟩ : Fin 100000) q) := by
    intro p q h
    show V c main_v57 (((cfg2.win 0).blk t).view.emb (ix2 p q)) = V c main_v57 (ix2 ⟨4000 * t.val + p.val, h⟩ q)
    refine congrArg (V c main_v57) (funext fun a => Fin.ext ?_)
    match a with
    | ⟨0, _⟩ => show win2_0.index t (0 : Fin 2) * 4000 + 1 * p.val = 4000 * t.val + p.val; omega
    | ⟨1, _⟩ => show win2_0.index t (1 : Fin 2) * 64 + 1 * q.val = q.val; omega
  refine rowBiasFloor_rows (M := 100000) (R := 4000) (N := 64) floor (4000 * t.val) (V c main_v57) (iblk2 V c 0 t) (V c main_v58) ha
    j (((cfg2.win 2).blk t).view.emb j) ?_ ?_
  · show win2_2.index t (0 : Fin 2) * 4000 + 1 * (j 0).val = 4000 * t.val + (j 0).val; omega
  · show win2_2.index t (1 : Fin 2) * 64 + 1 * (j 1).val = (j 1).val; omega

/-- An index of the result is in point `t`'s block iff each coordinate is in the block's range on its axis. -/
theorem mem_block (t : Fin cfg2.N) (i : S100000x64.Idx) :
    i ∈ ((cfg2.win 2).blk t).view.set ↔ ∀ a : Fin 2, win2_2.index t a * S4000x64.size a ≤ (i a).val
      ∧ (i a).val < win2_2.index t a * S4000x64.size a + S4000x64.size a := by
  show i ∈ ((View.whole main_v59).slice (win2_2.rect t)).set ↔ _
  rw [View.set_slice_whole, Rect.mem_set_unit]
  exact Iff.rfl

/-- Every block of rows is some point's. -/
theorem point_of_rows : ∀ q0 : Fin 25, ∃ t : Fin cfg2.N, win2_2.index t = ![q0.val, 0] :=
  (by decide +kernel : ∀ q0 : Fin 25, ∃ t : Fin grid2.N, win2_2.index t = ![q0.val, 0])

/-- The blocks tile the result: row `r` is in the block of point `r / 4000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := point_of_rows ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- THE RESULT ARRAY after the region: the aggregate with the bias added to every row, floored at zero, of the two arrays as
    the region finds them. -/
theorem result (c : Dev nD) :
    (dat2 V c).arrAt 2 cfg2.N = rowBiasFloor (M := 100000) (N := 64) floor (V c main_v57) (V c main_v58) :=
  (dat2 V c).arrAt_eq_of_cover 2 _ (fun t _ => flushed V c t) covered

end Cert.KernelIdeal.Region2

end
-- ==== Proof.Fold.lean ====
/-
  A kernel launch acts on the buffers as one host operation; so the kernel program's buffers end at one fold.

  A launch reads its input arrays and rewrites its result array, and nothing else: its input arrays and every buffer it
  does not name are, after it, what they were before it, and its result array is the kernel's function of the input
  arrays as the launch finds them — the product of features and weights for the first launch, the rectified biased
  aggregate times the weights for the second, the rectified biased aggregate for the third. That is exactly how a host
  operation acts: it rewrites the buffer it writes with its function of the buffers it reads. The program's final
  contents, a fold through stretches of host operations and launches, are therefore ONE fold of host operations from the
  launch memory, with one operation standing for each launch.
-/
import proofs.«117086_j14302241095713_1_alg».proof.Proof.Region0
import proofs.«117086_j14302241095713_1_alg».proof.Proof.Region1
import proofs.«117086_j14302241095713_1_alg».proof.Proof.Region2
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.LibPlainDot Cert.LibRowBias

/-- The rectifier's floor: the value of the zero word. -/
abbrev floor : EReal := Ideal.ofBits .f32 0x00000000#32

/-- The first launch as a host operation: features times first weights. -/
abbrev call0 : HloOp τ sig (Elt Ideal) :=
  binary main_arg0 main_arg1 main_v31
    ((fun x w => rowsTimes (M := 100000) (K := 64) (N := 64) x w) : (⟨S100000x64, .f32⟩ : BufTy).Contents (Elt Ideal) → (⟨S64x64, .f32⟩ : BufTy).Contents (Elt Ideal) → (⟨S100000x64, .f32⟩ : BufTy).Contents (Elt Ideal))

/-- The second launch as a host operation: the first aggregate, biased and rectified, times the second weights. -/
abbrev call1 : HloOp τ sig (Elt Ideal) :=
  ternary main_v43 main_v44 main_arg3 main_v45
    ((fun a b w => rowsTimes (M := 100000) (K := 64) (N := 64) (rowBiasFloor (M := 100000) (N := 64) floor a b) w) :
      (⟨S100000x64, .f32⟩ : BufTy).Contents (Elt Ideal) → (⟨S1x64, .f32⟩ : BufTy).Contents (Elt Ideal) → (⟨S64x64, .f32⟩ : BufTy).Contents (Elt Ideal) → (⟨S100000x64, .f32⟩ : BufTy).Contents (Elt Ideal))

/-- The third launch as a host operation: the second aggregate, biased and rectified. -/
abbrev call2 : HloOp τ sig (Elt Ideal) :=
  binary main_v57 main_v58 main_v59
    ((fun a b => rowBiasFloor (M := 100000) (N := 64) floor a b) : (⟨S100000x64, .f32⟩ : BufTy).Contents (Elt Ideal) → (⟨S1x64, .f32⟩ : BufTy).Contents (Elt Ideal) → (⟨S100000x64, .f32⟩ : BufTy).Contents (Elt Ideal))

variable (m : (ℓ : Loc nD τ sig) → Buf (Elt Ideal) ℓ) (ρ : Dev nD → PrngReg)

/-! ## Each launch's arrays after it: inputs kept, result at the kernel's function -/

theorem arrays0 (c : Dev nD) : ∀ w : Fin 3,
    (dat0 (V3 m ρ) c).arrAt w cfg0.N = (call0 : HloOp τ sig (Elt Ideal)).result (W3 m ρ c) (Proc.devRef .tc (Pipeline.arrRef spec0 w))
  | 0 => (((dat0 (V3 m ρ) c).arrAt_in 0 rfl _).trans (A_eq0 (V3 m ρ) c 0)).trans
      (binary_result_ne (τ := τ) _ _ _ _ _ _ _ (W3 m ρ c) (r := main_arg0) (by decide)).symm
  | 1 => (((dat0 (V3 m ρ) c).arrAt_in 1 rfl _).trans (A_eq0 (V3 m ρ) c 1)).trans
      (binary_result_ne (τ := τ) _ _ _ _ _ _ _ (W3 m ρ c) (r := main_arg1) (by decide)).symm
  | 2 => (Region0.result (V3 m ρ) c).trans (binary_result main_arg0 main_arg1 main_v31 _ _ _ _ (W3 m ρ c)).symm
  | ⟨_ + 3, h⟩ => absurd h (Nat.not_lt.2 (Nat.le_add_left _ _))

theorem arrays1 (c : Dev nD) : ∀ w : Fin 4,
    (dat1 (V5 m ρ) c).arrAt w cfg1.N = (call1 : HloOp τ sig (Elt Ideal)).result (W5 m ρ c) (Proc.devRef .tc (Pipeline.arrRef spec1 w))
  | 0 => (((dat1 (V5 m ρ) c).arrAt_in 0 rfl _).trans (A_eq1 (V5 m ρ) c 0)).trans
      (ternary_result_ne (τ := τ) _ _ _ _ _ _ _ _ _ (W5 m ρ c) (r := main_v43) (by decide)).symm
  | 1 => (((dat1 (V5 m ρ) c).arrAt_in 1 rfl _).trans (A_eq1 (V5 m ρ) c 1)).trans
      (ternary_result_ne (τ := τ) _ _ _ _ _ _ _ _ _ (W5 m ρ c) (r := main_v44) (by decide)).symm
  | 2 => (((dat1 (V5 m ρ) c).arrAt_in 2 rfl _).trans (A_eq1 (V5 m ρ) c 2)).trans
      (ternary_result_ne (τ := τ) _ _ _ _ _ _ _ _ _ (W5 m ρ c) (r := main_arg3) (by decide)).symm
  | 3 => (Region1.result (V5 m ρ) c).trans (ternary_result main_v43 main_v44 main_arg3 main_v45
        (fun a b w => rowsTimes (M := 100000) (K := 64) (N := 64) (rowBiasFloor (M := 100000) (N := 64) floor a b) w) _ _ _ _ (W5 m ρ c)).symm
  | ⟨_ + 4, h⟩ => absurd h (Nat.not_lt.2 (Nat.le_add_left _ _))

theorem arrays2 (c : Dev nD) : ∀ w : Fin 3,
    (dat2 (V7 m ρ) c).arrAt w cfg2.N = (call2 : HloOp τ sig (Elt Ideal)).result (W7 m ρ c) (Proc.devRef .tc (Pipeline.arrRef spec2 w))
  | 0 => (((dat2 (V7 m ρ) c).arrAt_in 0 rfl _).trans (A_eq2 (V7 m ρ) c 0)).trans
      (binary_result_ne (τ := τ) _ _ _ _ _ _ _ (W7 m ρ c) (r := main_v57) (by decide)).symm
  | 1 => (((dat2 (V7 m ρ) c).arrAt_in 1 rfl _).trans (A_eq2 (V7 m ρ) c 1)).trans
      (binary_result_ne (τ := τ) _ _ _ _ _ _ _ (W7 m ρ c) (r := main_v58) (by decide)).symm
  | 2 => (Region2.result (V7 m ρ) c).trans (binary_result main_v57 main_v58 main_v59 _ _ _ _ (W7 m ρ c)).symm
  | ⟨_ + 3, h⟩ => absurd h (Nat.not_lt.2 (Nat.le_add_left _ _))

/-! ## The buffers after each launch: the launch's operation applied to the buffers before it -/

theorem after_call0 (c : Dev nD) : W4 m ρ c = (call0 : HloOp τ sig (Elt Ideal)).result (W3 m ρ c) := by
  funext b
  by_cases hb : ∃ w, Proc.devRef .tc (Pipeline.arrRef spec0 w) = b
  · obtain ⟨w, rfl⟩ := hb
    exact (W4_arr m ρ c w).trans (arrays0 m ρ c w)
  · have hL : W4 m ρ c b = W3 m ρ c b := by
      unfold W4 Pipeline.withArrays
      exact dif_neg hb
    refine hL.trans (HloOp.result_of_not_mem _ _ ?_).symm
    rw [binary_writes, Finset.mem_singleton]
    exact fun e => hb ⟨2, e.symm⟩

theorem after_call1 (c : Dev nD) : W6 m ρ c = (call1 : HloOp τ sig (Elt Ideal)).result (W5 m ρ c) := by
  funext b
  by_cases hb : ∃ w, Proc.devRef .tc (Pipeline.arrRef spec1 w) = b
  · obtain ⟨w, rfl⟩ := hb
    exact (W6_arr m ρ c w).trans (arrays1 m ρ c w)
  · have hL : W6 m ρ c b = W5 m ρ c b := by
      unfold W6 Pipeline.withArrays
      exact dif_neg hb
    refine hL.trans (HloOp.result_of_not_mem _ _ ?_).symm
    rw [ternary_writes, Finset.mem_singleton]
    exact fun e => hb ⟨3, e.symm⟩

theorem after_call2 (c : Dev nD) : W8 m ρ c = (call2 : HloOp τ sig (Elt Ideal)).result (W7 m ρ c) := by
  funext b
  by_cases hb : ∃ w, Proc.devRef .tc (Pipeline.arrRef spec2 w) = b
  · obtain ⟨w, rfl⟩ := hb
    exact (W8_arr m ρ c w).trans (arrays2 m ρ c w)
  · have hL : W8 m ρ c b = W7 m ρ c b := by
      unfold W8 Pipeline.withArrays
      exact dif_neg hb
    refine hL.trans (HloOp.result_of_not_mem _ _ ?_).symm
    rw [binary_writes, Finset.mem_singleton]
    exact fun e => hb ⟨2, e.symm⟩

/-! ## The whole program as one fold -/

/-- The program's buffers at the end, from buffers `V` at the launch: the stretches of host operations in order, each
    launch's operation in its place. -/
def line (V : Valuation τ sig (Elt Ideal)) : Valuation τ sig (Elt Ideal) :=
  after hostOps3 ((call2 : HloOp τ sig (Elt Ideal)).result (after hostOps2 ((call1 : HloOp τ sig (Elt Ideal)).result
    (after hostOps1 ((call0 : HloOp τ sig (Elt Ideal)).result (after hostOps0_2 (after hostOps0_1 (after hostOps0 V))))))))

/-- The last stage of the program's fold is that line from the launch memory. -/
theorem last_stage (c : Dev nD) : W9 m ρ c = line (W0 m ρ c) := by
  unfold line
  show after hostOps3 (W8 m ρ c) = _
  rw [after_call2]
  show after hostOps3 ((call2 : HloOp τ sig (Elt Ideal)).result (after hostOps2 (W6 m ρ c))) = _
  rw [after_call1]
  show after hostOps3 ((call2 : HloOp τ sig (Elt Ideal)).result (after hostOps2 ((call1 : HloOp τ sig (Elt Ideal)).result
    (after hostOps1 (W4 m ρ c))))) = _
  rw [after_call0]

end Cert.KernelIdeal.Fold

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«117086_j14302241095713_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.Bridge.lean ====
/-
  The two programs' results are one function of the arguments.

  Both results are folds of host operations from the launch contents: the reference's its own line, the kernel program's
  its stretches of host operations with one operation standing for each launch. Read at the result buffer, each fold is a
  tree of pure operations over the argument arrays. The two trees are the same operation for operation — the same
  index arithmetic, degrees, normalisation, gathers and scatter-adds, pooling and final affine map — except at the
  three dense steps, where the kernel program has `rowsTimes` and `rowBiasFloor` of its arrays and the reference has a
  host `dot_general` and a sum with a twice-broadcast bias followed by a maximum with a broadcast zero. On the extended
  reals those are the same functions: a host `dot_general` over the plain dimension numbers is `rowsTimes`, and the
  host's rectified bias is `rowBiasFloor` of the bias reshaped to one row. No law of arithmetic beyond that is used,
  and none that needs finite values.
-/
import proofs.«117086_j14302241095713_1_alg».proof.Proof.Fold
import proofs.«117086_j14302241095713_1_alg».proof.Proof.RefRun
import proofs.«117086_j14302241095713_1_alg».proof.Proof.LibRowBiasHost

set_option maxRecDepth 16384

noncomputable section

namespace Cert.Bridge

open Idealize.ShloMosaic Idealize.ShloMosaic.TcCoe Idealize.ShloMosaic.StableHlo
open Cert.LibPlainDot Cert.LibRowBias

/-- Two index vectors, of 1200000 and of 100000 entries, joined end to end (the edge endpoints followed by the
    self-loops): the concatenation with its two operands as plain arguments. -/
def joined {α : Type} (a : (⟨1, ![1200000]⟩ : Shape).Idx → α) (b : (⟨1, ![100000]⟩ : Shape).Idx → α)
    (h : Shape.Concatenates [(⟨1, ![1200000]⟩ : Shape), ⟨1, ![100000]⟩] ⟨1, ![1300000]⟩ 0) :
    (⟨1, ![1300000]⟩ : Shape).Idx → α :=
  concatenate ⟨1, ![1300000]⟩ 0 [⟨⟨1, ![1200000]⟩, a⟩, ⟨⟨1, ![100000]⟩, b⟩] h

theorem kernel_joined {α : Type} (a : Cert.KernelIdeal.S1200000.Idx → α) (b : Cert.KernelIdeal.S100000.Idx → α) :
    concatenate Cert.KernelIdeal.S1300000 0 [⟨Cert.KernelIdeal.S1200000, a⟩, ⟨Cert.KernelIdeal.S100000, b⟩] Cert.KernelIdeal.Gen.concatenates_S1200000_S100000_S1300000_d0
      = joined a b Cert.KernelIdeal.Gen.concatenates_S1200000_S100000_S1300000_d0 := rfl

theorem reference_joined {α : Type} (a : Cert.ReferenceIdeal.S1200000.Idx → α) (b : Cert.ReferenceIdeal.S100000.Idx → α) :
    concatenate Cert.ReferenceIdeal.S1300000 0 [⟨Cert.ReferenceIdeal.S1200000, a⟩, ⟨Cert.ReferenceIdeal.S100000, b⟩] Cert.ReferenceIdeal.Gen.concatenates_S1200000_S100000_S1300000_d0
      = joined a b Cert.ReferenceIdeal.Gen.concatenates_S1200000_S100000_S1300000_d0 := rfl

/-- The reference's `dot_general` of the `[100000, 64]` by `[64, 64]` products is `rowsTimes`. -/
theorem ref_product (l : FVec Ideal Cert.ReferenceIdeal.S100000x64 .f32) (r : FVec Ideal Cert.ReferenceIdeal.S64x64 .f32) :
    Host.dotGeneral Cert.ReferenceIdeal.dot_S100000x64_S64x64_S100000x64_1_0_0_1_n_n none l r
      = rowsTimes (M := 100000) (K := 64) (N := 64) l r :=
  dotGeneral_plain (M := 100000) (K := 64) (N := 64) none .single l r

/-- The reference's rectified bias is `rowBiasFloor` at zero of the bias reshaped to one row (the reshape the kernel
    program performs on the host before its launches). -/
theorem ref_rectified (a : FVec Ideal Cert.ReferenceIdeal.S100000x64 .f32) (x : FVec Ideal Cert.ReferenceIdeal.S64 .f32) :
    maximumf (addf a (broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 x)))
      (broadcastInDim Cert.ReferenceIdeal.S100000x64 ![] Cert.ReferenceIdeal.Gen.bcast_S_S100000x64 (constant (F := Ideal) Cert.ReferenceIdeal.S_ .f32 0x00000000#32))
      = rowBiasFloor (M := 100000) (N := 64) (Ideal.ofBits .f32 0x00000000#32) a
          (shapeCast Cert.KernelIdeal.S1x64 x Cert.KernelIdeal.Gen.shapeCasts_S64_S1x64) :=
  max_addf_bcastRow (M := 100000) (N := 64) 0x00000000#32 a x Cert.ReferenceIdeal.Gen.bcast_S_S100000x64 Cert.ReferenceIdeal.Gen.bcast_S64_S1x64_1
    Cert.ReferenceIdeal.Gen.bcast_S1x64_S100000x64_0_1 Cert.KernelIdeal.Gen.shapeCasts_S64_S1x64

set_option maxHeartbeats 4000000 in
/-- From launch contents that agree on the nine arguments, the kernel program's result buffer and the reference's end
    equal. -/
theorem results_eq (V : Valuation Cert.KernelIdeal.τ Cert.KernelIdeal.sig (Elt Ideal)) (V' : Valuation Cert.ReferenceIdeal.τ Cert.ReferenceIdeal.sig (Elt Ideal))
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h3 : V' (Proc.devRef .tc Cert.ReferenceIdeal.main_arg3) = V (Proc.devRef .tc Cert.KernelIdeal.main_arg3))
    (h4 : V' (Proc.devRef .tc Cert.ReferenceIdeal.main_arg4) = V (Proc.devRef .tc Cert.KernelIdeal.main_arg4))
    (h5 : V' (Proc.devRef .tc Cert.ReferenceIdeal.main_arg5) = V (Proc.devRef .tc Cert.KernelIdeal.main_arg5))
    (h6 : V' (Proc.devRef .tc Cert.ReferenceIdeal.main_arg6) = V (Proc.devRef .tc Cert.KernelIdeal.main_arg6))
    (h7 : V' (Proc.devRef .tc Cert.ReferenceIdeal.main_arg7) = V (Proc.devRef .tc Cert.KernelIdeal.main_arg7))
    (h8 : V' (Proc.devRef .tc Cert.ReferenceIdeal.main_arg8) = V (Proc.devRef .tc Cert.KernelIdeal.main_arg8)) :
    Cert.KernelIdeal.Fold.line V (Proc.devRef .tc Cert.KernelIdeal.main_v75)
      = after (Cert.ReferenceIdeal.Line.ops (F := Ideal)) V' (Proc.devRef .tc Cert.ReferenceIdeal.main_v81) := by
  unfold Cert.KernelIdeal.Fold.line
  simp (disch := decide) only [Cert.KernelIdeal.Gen.hostOps0, Cert.KernelIdeal.Gen.hostOps0_1, Cert.KernelIdeal.Gen.hostOps0_2, Cert.KernelIdeal.Gen.hostOps1,
    Cert.KernelIdeal.Gen.hostOps2, Cert.KernelIdeal.Gen.hostOps3, Cert.KernelIdeal.Fold.call0, Cert.KernelIdeal.Fold.call1, Cert.KernelIdeal.Fold.call2, Cert.ReferenceIdeal.Line.ops,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', cast_eq,
    kernel_joined, reference_joined, h0, h1, h2, h3, h4, h5, h6, h7, h8, ref_product]
  -- the two rectified biases, inner then outer
  erw [ref_rectified, ref_rectified]
  rfl

end Cert.Bridge

end
-- ==== Proof.lean ====
/-
  A two-layer graph convolution network with mean pooling and a final affine map, as a kernel program and as its
  reference: the two compute one function of their arguments on the extended reals.

  Both programs compute, from node features `x`, edges `(row, col)` (self-loops appended) and a graph assignment:
  the degrees `deg = segment_sum(1, col)`, the normalisation `norm = dinv[row] * dinv[col]` with
  `dinv = where(deg > 0, rsqrt(deg), 0)`, then twice "multiply by a weight matrix, gather rows along `row`, scale by
  `norm`, scatter-add along `col`, add a bias, rectify", then the mean of the rows of each graph and an affine map. Every
  sparse step is the same host operation in both programs. The kernel program performs the three dense steps in
  kernels that walk the `[100000, 64]` arrays in 25 blocks of 4000 rows: `x W1`; `relu(agg1 + b1) W2` (the first layer's
  bias and rectifier fused into the second layer's product); `relu(agg2 + b2)`. The reference performs them as host
  operations on whole arrays.

  The proof reads each launch's result array as one function of its input arrays (Region0, Region1, Region2: a block of
  rows of a product, or of a rectified biased array, is that function of the block of rows), shows that a launch therefore
  acts on the buffers as ONE host operation (Fold), so that the kernel program's final contents are a fold of host
  operations like the reference's (RefRun), and compares the two folds at the result buffer (Bridge): they are the same
  tree of operations, the dense steps meeting through "a host `dot_general` over plain dimension numbers is the
  row-by-column sum" and "the host's twice-broadcast bias and maximum with zero is the row bias floored at zero". A change
  of float format is the identity on the extended reals, and a product accumulated into zero is the plain sum; no other
  law of arithmetic is used, so the finiteness of the inputs is never opened. The kernel program runs by the library's
  theorem for a program of several launches (KernelRun); the idealization rewrote nothing, so `preserves` is trivial.
-/
import proofs.«117086_j14302241095713_1_alg».proof.Defs
import proofs.«117086_j14302241095713_1_alg».proof.Proof.Gen.Kernel
import proofs.«117086_j14302241095713_1_alg».proof.Proof.Gen.Kernel.Frame
import proofs.«117086_j14302241095713_1_alg».proof.Proof.Gen.KernelIdeal
import proofs.«117086_j14302241095713_1_alg».proof.Proof.Gen.KernelIdeal.Frame
import proofs.«117086_j14302241095713_1_alg».proof.Proof.Gen.ReferenceIdeal
import proofs.«117086_j14302241095713_1_alg».proof.Proof.Gen.Pre_finite_inputs
import proofs.«117086_j14302241095713_1_alg».proof.Proof.KernelRun
import proofs.«117086_j14302241095713_1_alg».proof.Proof.RefRun
import proofs.«117086_j14302241095713_1_alg».proof.Proof.RefKept
import proofs.«117086_j14302241095713_1_alg».proof.Proof.Fold
import proofs.«117086_j14302241095713_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a line of host operations: it runs, and no operation writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _),
      (h c Cert.ReferenceIdeal.main_arg4).trans (Cert.ReferenceIdeal.Line.kept_arg4 _),
      (h c Cert.ReferenceIdeal.main_arg5).trans (Cert.ReferenceIdeal.Line.kept_arg5 _),
      (h c Cert.ReferenceIdeal.main_arg6).trans (Cert.ReferenceIdeal.Line.kept_arg6 _),
      (h c Cert.ReferenceIdeal.main_arg7).trans (Cert.ReferenceIdeal.Line.kept_arg7 _),
      (h c Cert.ReferenceIdeal.main_arg8).trans (Cert.ReferenceIdeal.Line.kept_arg8 _)⟩)
    (Cert.ReferenceIdeal.Line.run (F := Ideal) m ρ)

/-- The idealization rewrote no operation. -/
theorem preserves : Cert.preserves_Kernel_KernelIdeal := trivial

/-- From memories agreeing on the arguments both programs run, and end with equal results: the kernel program's result
    buffer at the last stage of its fold, the reference's at its line's fold, and the two folds one function of the
    arguments. -/
theorem algebraic : Cert.algebraic_KernelIdeal_ReferenceIdeal := by
  intro m ρ m' ρ' _ hagree
  refine ⟨fun c => Cert.KernelIdeal.Gen.W9 m ρ c (Proc.devRef .tc Cert.KernelIdeal.main_v75), Cert.KernelIdeal.Run.run_result (F := Ideal) m ρ, ?_⟩
  refine (θ_run Cert.ReferenceIdeal.defs _ _).mono (fun r h c => ?_) (Cert.ReferenceIdeal.Line.run (F := Ideal) m' ρ')
  obtain ⟨a0, a1, a2, a3, a4, a5, a6, a7, a8⟩ := hagree c
  refine ⟨(h c Cert.ReferenceIdeal.main_v81).trans ?_,
      (h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _),
      (h c Cert.ReferenceIdeal.main_arg4).trans (Cert.ReferenceIdeal.Line.kept_arg4 _),
      (h c Cert.ReferenceIdeal.main_arg5).trans (Cert.ReferenceIdeal.Line.kept_arg5 _),
      (h c Cert.ReferenceIdeal.main_arg6).trans (Cert.ReferenceIdeal.Line.kept_arg6 _),
      (h c Cert.ReferenceIdeal.main_arg7).trans (Cert.ReferenceIdeal.Line.kept_arg7 _),
      (h c Cert.ReferenceIdeal.main_arg8).trans (Cert.ReferenceIdeal.Line.kept_arg8 _)⟩
  exact ((congrFun (Cert.KernelIdeal.Fold.last_stage m ρ c) (Proc.devRef .tc Cert.KernelIdeal.main_v75)).trans
    (Cert.Bridge.results_eq (Cert.KernelIdeal.Gen.W0 m ρ c) (launchContents m' c) a0 a1 a2 a3 a4 a5 a6 a7 a8)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
